-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S28x1 : Shape := ⟨2, ![28, 1]⟩
abbrev S512x28 : Shape := ⟨2, ![512, 28]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S28x1 : S_.BroadcastsInDim S28x1 (![] : Fin 0 → Fin S28x1.rank)
  reducesTo_S28x1_S_d0_1 : S28x1.ReducesTo [0, 1] S_
  bcast_S_S512x28 : S_.BroadcastsInDim S512x28 (![] : Fin 0 → Fin S512x28.rank)
  reducesTo_S512x28_S_d0_1 : S512x28.ReducesTo [0, 1] S_

variable [Facts]

def fn {F : FTy → Type} [FloatOps F] (main_arg0 : FVec F S131072x512 .f32) (main_arg1 : FVec F S28x1 .f32) (main_arg2 : FVec F S512x28 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S28x1 .f32 := Host.absf main_arg1
  let main_cst_0 : FVec F S_ .f32 := constant S_ .f32 0x7F800000#32
  let main_v5 : FVec F S28x1 .f32 := broadcastInDim S28x1 ![] bcast_S_S28x1 main_cst_0
  let main_v6 : IVec S28x1 1 := cmpf .olt main_v4 main_v5
  let main_c_1 : IVec S_ 1 := constantI S_ 1 1#1
  let main_v7 : IVec S_ 1 := (fun x v => Host.reduce IntOp.andi x v reducesTo_S28x1_S_d0_1 h_S_) main_v6 main_c_1
  let main_v8 : IVec S_ 1 := andi main_v3 main_v7
  let main_v9 : FVec F S512x28 .f32 := Host.absf main_arg2
  let main_cst_2 : FVec F S_ .f32 := constant S_ .f32 0x7F800000#32
  let main_v10 : FVec F S512x28 .f32 := broadcastInDim S512x28 ![] bcast_S_S512x28 main_cst_2
  let main_v11 : IVec S512x28 1 := cmpf .olt main_v9 main_v10
  let main_c_3 : IVec S_ 1 := constantI S_ 1 1#1
  let main_v12 : IVec S_ 1 := (fun x v => Host.reduce IntOp.andi x v reducesTo_S512x28_S_d0_1 h_S_) main_v11 main_c_3
  let main_v13 : IVec S_ 1 := andi main_v8 main_v12
  main_v13
-- ==== Kernel.lean ====
abbrev S131072x512 : Shape := ⟨2, ![131072, 512]⟩
abbrev S28x1 : Shape := ⟨2, ![28, 1]⟩
abbrev S512x28 : Shape := ⟨2, ![512, 28]⟩
abbrev S1x28 : Shape := ⟨2, ![1, 28]⟩
abbrev S131072 : Shape := ⟨1, ![131072]⟩
abbrev S4096x512 : Shape := ⟨2, ![4096, 512]⟩
abbrev S4096 : Shape := ⟨1, ![4096]⟩
abbrev S4096x28 : Shape := ⟨2, ![4096, 28]⟩
abbrev S131072x1 : Shape := ⟨2, ![131072, 1]⟩
abbrev S1x512 : Shape := ⟨2, ![1, 512]⟩

abbrev nBuf : Space → Nat
  | .hbm => 8
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S28x1, .f32⟩
  | .hbm, ⟨2, _⟩ => ⟨S512x28, .f32⟩
  | .hbm, ⟨3, _⟩ => ⟨S1x28, .f32⟩
  | .hbm, ⟨4, _⟩ => ⟨S131072, .f32⟩
  | .hbm, ⟨5, _⟩ => ⟨S131072x1, .f32⟩
  | .hbm, ⟨6, _⟩ => ⟨S1x512, .f32⟩
  | .hbm, ⟨7, _⟩ => ⟨S1x28, .f32⟩
  | .local _ .vmem, ⟨0, _⟩ => ⟨S4096x512, .f32⟩
  | .local _ .vmem, ⟨1, _⟩ => ⟨S4096x512, .f32⟩
  | .local _ .vmem, ⟨2, _⟩ => ⟨S512x28, .f32⟩
  | .local _ .vmem, ⟨3, _⟩ => ⟨S1x28, .f32⟩
  | .local _ .vmem, ⟨4, _⟩ => ⟨S4096, .f32⟩
  | .local _ .vmem, ⟨5, _⟩ => ⟨S4096, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S28x1_S1x28 : S28x1.ShapeCasts S1x28
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x28_S512x28_0_0 : ∀ a, (![0, 0] : Fin 2 → Nat) a + S512x28.size a ≤ S512x28.size a
  h_S512x28 : 0 < S512x28.numel
  inb_S1x28_S1x28_0_0 : ∀ a, (![0, 0] : Fin 2 → Nat) a + S1x28.size a ≤ S1x28.size a
  h_S1x28 : 0 < S1x28.numel
  shapeCasts_S1x28_S1x28 : S1x28.ShapeCasts S1x28
  broadcasts_S1x28_S4096x28 : S1x28.Broadcasts S4096x28
  reduces_S4096x28_S4096 : S4096x28.Reduces [1] S4096
  inb_S4096_S4096_0 : ∀ a, (![0] : Fin 1 → Nat) a + S4096.size a ≤ S4096.size a
  h_S4096 : 0 < S4096.numel
  shapeCasts_S131072_S131072x1 : S131072.ShapeCasts S131072x1
  slices_S131072x512_S1x512_131071_0 : S131072x512.Slices ![131071, 0] S1x512
  dot_S4096x512_S512x28_S4096x28_1_0_0_1_n_n_wf : DotDims.WF S4096x512 S512x28 S4096x28 [1] [0] [0] [1] [] []
  dot_S1x512_S512x28_S1x28_1_0_0_1_n_n_wf : DotDims.WF S1x512 S512x28 S1x28 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x28.size a ≤ S512x28.size a
  hwx0_1 : ∀ i : grid0.Coords, EltTy.bits .f32 = 32 ∨ (Rect.block (s := S512x28) S512x28.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x28.size a ≤ S1x28.size a
  hwx0_2 : ∀ i : grid0.Coords, EltTy.bits .f32 = 32 ∨ (Rect.block (s := S1x28) S1x28.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S131072.size a
  hwx0_3 : ∀ i : grid0.Coords, EltTy.bits .f32 = 32 ∨ (Rect.block (s := S131072) S4096.size (cc0_transform_3 i) (hinb0_3 i)).WholeWords (EltTy.packing .f32)

variable [Facts₀]

def dot_S4096x512_S512x28_S4096x28_1_0_0_1_n_n : DotDims S4096x512 S512x28 S4096x28 where
  lhsContracting := [1]
  rhsContracting := [0]
  lhsNonContracting := [0]
  rhsNonContracting := [1]
  lhsBatch := []
  rhsBatch := []
  wf := dot_S4096x512_S512x28_S4096x28_1_0_0_1_n_n_wf
def dot_S1x512_S512x28_S1x28_1_0_0_1_n_n : DotDims S1x512 S512x28 S1x28 where
  lhsContracting := [1]
  rhsContracting := [0]
  lhsNonContracting := [0]
  rhsNonContracting := [1]
  lhsBatch := []
  rhsBatch := []
  wf := dot_S1x512_S512x28_S1x28_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x28.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x28.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S28x1 : Shape := ⟨2, ![28, 1]⟩
abbrev S512x28 : Shape := ⟨2, ![512, 28]⟩
abbrev S131072x28 : Shape := ⟨2, ![131072, 28]⟩
abbrev S131072x1 : Shape := ⟨2, ![131072, 1]⟩
abbrev S1x28 : Shape := ⟨2, ![1, 28]⟩

abbrev nBuf : Space → Nat
  | .hbm => 6
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S28x1, .f32⟩
  | .hbm, ⟨2, _⟩ => ⟨S512x28, .f32⟩
  | .hbm, ⟨3, _⟩ => ⟨S131072x28, .f32⟩
  | .hbm, ⟨4, _⟩ => ⟨S131072x1, .f32⟩
  | .hbm, ⟨5, _⟩ => ⟨S1x28, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  slices_S131072x28_S1x28_131071_0 : S131072x28.Slices ![131071, 0] S1x28
  dot_S131072x512_S512x28_S131072x28_1_0_0_1_n_n_wf : DotDims.WF S131072x512 S512x28 S131072x28 [1] [0] [0] [1] [] []
  dot_S131072x28_S28x1_S131072x1_1_0_0_1_n_n_wf : DotDims.WF S131072x28 S28x1 S131072x1 [1] [0] [0] [1] [] []

variable [Facts₀]

def dot_S131072x512_S512x28_S131072x28_1_0_0_1_n_n : DotDims S131072x512 S512x28 S131072x28 where
  lhsContracting := [1]
  rhsContracting := [0]
  lhsNonContracting := [0]
  rhsNonContracting := [1]
  lhsBatch := []
  rhsBatch := []
  wf := dot_S131072x512_S512x28_S131072x28_1_0_0_1_n_n_wf
def dot_S131072x28_S28x1_S131072x1_1_0_0_1_n_n : DotDims S131072x28 S28x1 S131072x1 where
  lhsContracting := [1]
  rhsContracting := [0]
  lhsNonContracting := [0]
  rhsNonContracting := [1]
  lhsBatch := []
  rhsBatch := []
  wf := dot_S131072x28_S28x1_S131072x1_1_0_0_1_n_n_wf

class Facts : Prop extends Facts₀ where

variable [Facts]
-- ==== Proof.Scores.lean ====
/-
  The two results as functions of the three argument arrays, on the extended reals.

  With θ : [131072, 512], φ : [28, 1] and W : [512, 28]:
  * the score of row p is  Σ_s (Σ_d θ(p, d) · W(d, s)) · φ(s, 0)  — the row's projection θ(p, ·) · W, a vector of
    length 28, contracted with the column φ; the scores form a [131072, 1] column;
  * the second result is the projection of the LAST row, θ(131071, ·) · W, as a [1, 28] row.
  Both are written exactly as nested finite sums, in the order the two programs take them, so that neither side's
  agreement with them needs any law of the extended reals beyond reading sums index by index.
-/
import Idealize.ShloMosaic.PureOps.Ideal
import Idealize.ShloMosaic.Lib.ValueIdx

noncomputable section

open scoped BigOperators

namespace Cert.Scores

open Idealize.ShloMosaic Idealize.ShloMosaic.ValueIdx

/-- The projection of row p onto coordinate s: Σ_d θ(p, d) · W(d, s). -/
def proj (θ : (⟨2, ![131072, 512]⟩ : Shape).Idx → EReal) (W : (⟨2, ![512, 28]⟩ : Shape).Idx → EReal)
    (p : Fin 131072) (s : Fin 28) : EReal :=
  ∑ d : Fin 512, θ (ix2 p d) * W (ix2 d s)

/-- The score of row p: its projection contracted with the column φ. -/
def scoreAt (θ : (⟨2, ![131072, 512]⟩ : Shape).Idx → EReal) (φ : (⟨2, ![28, 1]⟩ : Shape).Idx → EReal)
    (W : (⟨2, ![512, 28]⟩ : Shape).Idx → EReal) (p : Fin 131072) : EReal :=
  ∑ s : Fin 28, proj θ W p s * φ (ix2 s (0 : Fin 1))

/-- The scores as a [131072, 1] column. -/
def scoreCol (θ : (⟨2, ![131072, 512]⟩ : Shape).Idx → EReal) (φ : (⟨2, ![28, 1]⟩ : Shape).Idx → EReal)
    (W : (⟨2, ![512, 28]⟩ : Shape).Idx → EReal) : (⟨2, ![131072, 1]⟩ : Shape).Idx → EReal :=
  fun i => scoreAt θ φ W (i 0)

/-- The last row's projection as a [1, 28] row. -/
def lastProj (θ : (⟨2, ![131072, 512]⟩ : Shape).Idx → EReal) (W : (⟨2, ![512, 28]⟩ : Shape).Idx → EReal) :
    (⟨2, ![1, 28]⟩ : Shape).Idx → EReal :=
  fun j => proj θ W (131071 : Fin 131072) (j 1)

end Cert.Scores

end
-- ==== Proof.RefScores.lean ====
/-
  The reference computes the projection θ · W of every row by one matrix product, contracts it with the column φ by a
  second matrix product, and cuts the last row out of the first product. Read index by index, the first result at
  (p, 0) is Σ_s (Σ_d θ(p, d) · W(d, s)) · φ(s, 0) and the second at (0, s) is Σ_d θ(131071, d) · W(d, s): the functions
  scoreCol and lastProj.
-/
import proofs.«158071_j89395449299573_2_alg».proof.Proof.Gen.ReferenceIdeal.Read
import proofs.«158071_j89395449299573_2_alg».proof.Proof.Scores
import Idealize.ShloMosaic.Lib.ValueIdx
import Idealize.ShloMosaic.PureOps.Ideal.Laws

noncomputable section

open scoped BigOperators

namespace Cert.ReferenceIdeal.RefScores

open Idealize.ShloMosaic Idealize.ShloMosaic.ValueIdx Cert.ReferenceIdeal Cert.ReferenceIdeal.Read Cert.Scores

/-- The first product's left index at output (p, s) and contraction coordinate d is (p, d). -/
theorem lidx0 (p : Fin 131072) (s : Fin 28) (k : Fin 512) : lidx_main_v0 (ix2 p s) k = ix2 p k :=
  funext fun a => Fin.ext (by match a with | ⟨0, _⟩ => rfl | ⟨1, _⟩ => rfl)
/-- Its right index there is (d, s). -/
theorem ridx0 (p : Fin 131072) (s : Fin 28) (k : Fin 512) : ridx_main_v0 (ix2 p s) k = ix2 k s :=
  funext fun a => Fin.ext (by match a with | ⟨0, _⟩ => rfl | ⟨1, _⟩ => rfl)
/-- The second product's left index at output (p, 0) and contraction coordinate s is (p, s). -/
theorem lidx1 (p : Fin 131072) (u : Fin 1) (k : Fin 28) : lidx_main_v1 (ix2 p u) k = ix2 p k :=
  funext fun a => Fin.ext (by match a with | ⟨0, _⟩ => rfl | ⟨1, _⟩ => rfl)
/-- Its right index there is (s, 0): the column has one entry per row. -/
theorem ridx1 (p : Fin 131072) (u : Fin 1) (k : Fin 28) : ridx_main_v1 (ix2 p u) k = ix2 k (0 : Fin 1) :=
  funext fun a => Fin.ext (by
    match a with
    | ⟨0, _⟩ => rfl
    | ⟨1, _⟩ => show u.val = 0; omega)
/-- The slice's one row is row 131071 of the product. -/
theorem idx2 (u : Fin 1) (s : Fin 28) : idx_main_v2 (ix2 u s) = ix2 (131071 : Fin 131072) s :=
  funext fun a => Fin.ext (by
    match a with
    | ⟨0, _⟩ => show 131071 + u.val = 131071; omega
    | ⟨1, _⟩ => rfl)

/-- The first product at an index is the projection. -/
theorem val0_apply (x0 : S131072x512.Idx → EReal) (x2 : S512x28.Idx → EReal) (p : Fin 131072) (s : Fin 28) :
    val_main_v0 (F := Ideal) x0 x2 (ix2 p s) = proj x0 x2 p s := by
  rw [val_main_v0_apply]
  unfold proj
  refine Finset.sum_congr rfl fun d _ => ?_
  rw [lidx0, ridx0]

/-- The reference's first result is the column of scores. -/
theorem scores_eq (x0 : S131072x512.Idx → EReal) (x1 : S28x1.Idx → EReal) (x2 : S512x28.Idx → EReal) :
    val_main_v1 (F := Ideal) x0 x1 x2 = scoreCol x0 x1 x2 := by
  funext i
  obtain ⟨p, u, rfl⟩ : ∃ (p : Fin 131072) (u : Fin 1), i = ix2 p u := ⟨i 0, i 1, eq_ix2 i⟩
  rw [val_main_v1_apply]
  show _ = scoreAt x0 x1 x2 p
  unfold scoreAt
  refine Finset.sum_congr rfl fun s _ => ?_
  rw [lidx1, ridx1, val0_apply]

/-- The reference's second result is the last row's projection. -/
theorem last_eq (x0 : S131072x512.Idx → EReal) (x2 : S512x28.Idx → EReal) :
    val_main_v2 (F := Ideal) x0 x2 = lastProj x0 x2 := by
  funext i
  obtain ⟨u, s, rfl⟩ : ∃ (u : Fin 1) (s : Fin 28), i = ix2 u s := ⟨i 0, i 1, eq_ix2 i⟩
  rw [val_main_v2_apply, idx2, val0_apply]
  rfl

end Cert.ReferenceIdeal.RefScores

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibPayload.lean ====
/- General facts about a kernel's pure values at the ideal semantics, read at an index: a plain matrix product into the
   zero accumulator, a column broadcast, a vector cast to a one-column matrix, the f32 words of 1.0 and of minus infinity,
   and the row sum and row maximum of a matrix. Every index is written with ix1 / ix2 over literal Fin coordinates. -/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx

/-! ## A plain matrix product read at an index -/

/-- The dimension numbers of a plain product [m, K] · [K, n] → [m, n]: the left operand's axis 1 contracted with the
    right operand's axis 0, no batch axes. Any record with these six lists is this one (its well-formedness is a proof). -/
abbrev plainDims {m K n : ℕ}
    (wf : DotDims.WF (⟨2, ![m, K]⟩ : Shape) ⟨2, ![K, n]⟩ ⟨2, ![m, n]⟩ [1] [0] [0] [1] [] []) :
    DotDims ⟨2, ![m, K]⟩ ⟨2, ![K, n]⟩ ⟨2, ![m, n]⟩ :=
  ⟨[1], [0], [0], [1], [], [], wf⟩

/-- A plain matrix product into the zero accumulator, read at (p, q), is the sum over k of lhs (p, k) * rhs (k, q): the
    sum over the one-axis contraction index re-indexed by its coordinate, the operands' indices read off coordinate by
    coordinate. -/
theorem matmul_plain_zero_apply {m K n : ℕ} {φ₁ φ₂ : FTy}
    (wf : DotDims.WF (⟨2, ![m, K]⟩ : Shape) ⟨2, ![K, n]⟩ ⟨2, ![m, n]⟩ [1] [0] [0] [1] [] [])
    (prec : Option ContractPrecision) (lhs : FVec Ideal ⟨2, ![m, K]⟩ φ₁) (rhs : FVec Ideal ⟨2, ![K, n]⟩ φ₂)
    (p : Fin m) (q : Fin n) :
    FloatOps.matmul (plainDims wf) prec lhs rhs (constant ⟨2, ![m, n]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, h0⟩ =>
        have hb : ¬(⟨0, h0⟩ : Fin (Shape.rank ⟨2, ![m, K]⟩)) ∈ (plainDims wf).lhsBatch := List.not_mem_nil
        have hn : (⟨0, h0⟩ : Fin (Shape.rank ⟨2, ![m, K]⟩)) ∈ (plainDims wf).lhsNonContracting :=
          List.mem_singleton.2 rfl
        unfold DotDims.lhsIdx
        rw [dif_neg hb, dif_pos hn]
        rfl
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, h1⟩ =>
        have hb : ¬(⟨1, h1⟩ : Fin (Shape.rank ⟨2, ![K, n]⟩)) ∈ (plainDims wf).rhsBatch := List.not_mem_nil
        have hn : (⟨1, h1⟩ : Fin (Shape.rank ⟨2, ![K, n]⟩)) ∈ (plainDims wf).rhsNonContracting :=
          List.mem_singleton.2 rfl
        unfold DotDims.rhsIdx
        rw [dif_neg hb, dif_pos hn]
        rfl)
  rw [el, er]

/-! ## Layout operations at an index -/

section Layout
variable {α : Type}

/-- An [a, 1] column broadcast to [a, b] reads, at (p, c), the operand's one column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Two f32 words -/

/-- The f32 word of 1.0 is the extended real 1. -/
theorem ofBits_one_f32 : Ideal.ofBits .f32 0x3F800000#32 = 1 := by
  simp [Ideal.ofBits, Ideal.ieee, -EReal.coe_mul]; norm_num

/-- The f32 word of minus infinity is the least extended real. -/
theorem ofBits_neg_inf_f32 : Ideal.ofBits .f32 0xFF800000#32 = ⊥ := by
  simp [Ideal.ofBits, Ideal.ieee]

/-! ## A matrix reduced along its rows -/

/-- The reduced index p of an [a, b] matrix reduced over its second axis, with the coordinate k put back, is (p, k). -/
theorem lift_rows_ix1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over the second axis of an [a, b] matrix from the accumulator 0, read at p, is the row's sum. -/
theorem multiReduction_add_rows_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_rows_ix1 h p k)

/-- The fold of max from the least element over all of Fin n is the supremum. -/
theorem fold_max_bot_eq_sup {n : ℕ} (f : Fin n → EReal) :
    (Finset.univ : Finset (Fin n)).fold max ⊥ f = Finset.univ.sup f := rfl

/-- A float maximum over the second axis of an [a, b] matrix from the accumulator minus infinity, read at p, is the row's
    supremum. -/
theorem multiReduction_maximumf_rows_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = Finset.univ.sup fun k : Fin b => src (ix2 p k) := by
  refine (Ideal.multiReduction_maximumf_single src 0xFF800000#32 h hφ hacc (ix1 p)).trans ?_
  have hf : (src ∘ h.lift (ix1 p)) = fun k : Fin b => src (ix2 p k) :=
    funext fun k => congrArg src (lift_rows_ix1 h p k)
  show (Finset.univ : Finset (Fin b)).fold max (Ideal.ofBits .f32 0xFF800000#32) (src ∘ h.lift (ix1 p)) = _
  rw [hf, ofBits_neg_inf_f32]
  exact fold_max_bot_eq_sup _

end Cert.KernelIdeal.Pay

end
-- ==== Proof.BodyScores.lean ====
/-
  What the kernel body computes from its three loaded blocks: a [4096, 512] block x0 of θ, the whole of W as x1, and the
  column φ re-laid as a [1, 28] row x2. It multiplies x0 by x1 into a zero accumulator, multiplies every row of the
  product entry by entry with the row x2, and sums each row. On the extended reals the changes of float format are the
  identity, so the entry for row p of the block is  Σ_s (Σ_d x0(p, d) · x1(d, s)) · x2(0, s).
-/
import proofs.«158071_j89395449299573_2_alg».proof.Proof.Gen.KernelIdeal.Skeleton
import proofs.«158071_j89395449299573_2_alg».proof.Proof.LibPlainMatmul
import proofs.«158071_j89395449299573_2_alg».proof.Proof.LibPayload
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyScores

open Idealize.ShloMosaic Idealize.ShloMosaic.ValueIdx Cert.KernelIdeal Cert.KernelIdeal.Gen

/-- The body's stored vector at row p of the block: the row's projection contracted with the row x2. -/
theorem pay_apply (x0 : Vec Ideal S4096x512 .f32) (x1 : Vec Ideal S512x28 .f32) (x2 : Vec Ideal S1x28 .f32) (p : Fin 4096) :
    k0_pay1 (F := Ideal) x0 x1 x2 (ix1 p)
      = ∑ s : Fin 28, (∑ d : Fin 512, x0 (ix2 p d) * x1 (ix2 d s)) * x2 (ix2 (0 : Fin 1) s) := by
  unfold k0_pay1
  refine (Cert.KernelIdeal.Pay.multiReduction_add_rows_apply _ _ _ _ p).trans ?_
  refine Finset.sum_congr rfl fun s _ => ?_
  refine (mulf_apply _ _ (ix2 p s)).trans ?_
  refine congrArg₂ (· * ·) ?_ ?_
  · exact Cert.LibPlainMatmul.matmul_plain_zero_apply dot_S4096x512_S512x28_S4096x28_1_0_0_1_n_n rfl none _ _ p s
  · refine (broadcastTo_1b_ab_apply _ _ p s).trans ?_
    exact congrFun (shapeCast_self x2 _) _

end Cert.KernelIdeal.BodyScores

end
-- ==== Proof.BlockScores.lean ====
/-
  From blocks to the whole vector of scores.

  The grid has 32 points; point t reads rows 4096·t … 4096·t + 4095 of θ, the whole of W and the whole row r (φ re-laid
  as [1, 28]), and writes back entries 4096·t … 4096·t + 4095 of the score vector. What it writes is the block of ONE
  vector, rowScores θ W r, whose entry i is Σ_s (Σ_d θ(i, d) · W(d, s)) · r(0, s); the 32 blocks tile the 131072 entries,
  so after the run the array IS that vector.
-/
import proofs.«158071_j89395449299573_2_alg».proof.Proof.Gen.KernelIdeal.Frame
import proofs.«158071_j89395449299573_2_alg».proof.Proof.BodyScores
import proofs.«158071_j89395449299573_2_alg».proof.Proof.Scores
import Idealize.ShloMosaic.Lib.Pipeline.Value
import Idealize.ShloMosaic.Lib.ValueIdx

set_option maxRecDepth 16384

noncomputable section

open scoped BigOperators

namespace Cert.KernelIdeal.BlockScores

open Idealize.ShloMosaic Idealize.ShloMosaic.TcCoe Idealize.ShloMosaic.ValueIdx Idealize.SL.Sem
open Cert.KernelIdeal Cert.KernelIdeal.Gen Cert.KernelIdeal.BodyScores Cert.Scores
open Idealize.ShloMosaic.Pipeline (Dat Cfg Window)

variable (m : (ℓ : Loc nD τ sig) → Buf (Elt Ideal) ℓ)

/-- The vector of scores from θ, W and the ROW r: entry i is the projection of row i contracted with r. -/
def rowScores (θ : S131072x512.Idx → EReal) (W : S512x28.Idx → EReal) (r : S1x28.Idx → EReal) : S131072.Idx → EReal :=
  fun i => ∑ s : Fin 28, proj θ W (i 0) s * r (ix2 (0 : Fin 1) s)

theorem zeros1 : (![0] : Fin 1 → Nat) = fun _ => 0 := funext fun a => by fin_cases a <;> rfl
theorem zeros2 : (![0, 0] : Fin 2 → Nat) = fun _ => 0 := funext fun a => by fin_cases a <;> rfl

/-- The printed index maps over the grid: the block of θ moves with the output block along the rows and stays at
    column block 0; W and the row r are always at block (0, 0). -/
theorem idx_facts : ∀ t : Fin cfg0.N, win0_0.index t (0 : Fin 2) = win0_3.index t (0 : Fin 1)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every one of the 32 output blocks is some point's. -/
theorem idx_onto : ∀ q : Fin 32, ∃ t : Fin cfg0.N, win0_3.index t = ![q.val] :=
  (by decide +kernel : ∀ q : Fin 32, ∃ t : Fin grid0.N, win0_3.index t = ![q.val])

/-- What point t writes back is block t of the vector of scores of the arrays as the region finds them. -/
theorem flushed_eq (c : Dev nD) (t : Fin cfg0.N) :
    (dats m 0 c).flushed 3 t
      = ((cfg0.win 3).blk t).view.read (Elt Ideal) (rowScores (V m c main_arg0) (V m c main_arg2) (V m c main_v0)) := by
  show (cfg0.win 3).cut (grid0.coords t) ((dats m 0 c).after 3 t) = _
  rw [after0_3]
  unfold out0_3
  rw [View.canon_unit_zero zeros1]
  simp only [View.ld_unit_zero (S := S4096x512) zeros2, View.ld_unit_zero (S := S512x28) zeros2,
    View.ld_unit_zero (S := S1x28) zeros2]
  obtain ⟨e0, e1, e2, e3, e4, e5⟩ := idx_facts t
  funext j
  obtain ⟨p, rfl⟩ : ∃ p : Fin 4096, j = ix1 p := ⟨j 0, eq_ix1 j⟩
  show k0_pay1 (iblk m c 0 t) (iblk m c 1 t) (iblk m c 2 t) (ix1 p)
    = rowScores (V m c main_arg0) (V m c main_arg2) (V m c main_v0) (((cfg0.win 3).blk t).view.emb (ix1 p))
  refine (pay_apply (iblk m c 0 t) (iblk m c 1 t) (iblk m c 2 t) p).trans ?_
  unfold rowScores proj
  refine Finset.sum_congr rfl fun s _ => ?_
  refine congrArg₂ (· * ·) (Finset.sum_congr rfl fun d _ => congrArg₂ (· * ·) ?_ ?_) ?_
  · show V m c main_arg0 (((cfg0.win 0).blk t).view.emb (ix2 p d))
      = V m c main_arg0 (ix2 ((((cfg0.win 3).blk t).view.emb (ix1 p)) 0) d)
    refine congrArg _ (funext fun a => Fin.ext ?_)
    match a with
    | ⟨0, _⟩ =>
      show win0_0.index t (0 : Fin 2) * 4096 + 1 * p.val = win0_3.index t (0 : Fin 1) * 4096 + 1 * p.val
      omega
    | ⟨1, _⟩ =>
      show win0_0.index t (1 : Fin 2) * 512 + 1 * d.val = d.val
      omega
  · show V m c main_arg2 (((cfg0.win 1).blk t).view.emb (ix2 d s)) = V m c main_arg2 (ix2 d s)
    refine congrArg _ (funext fun a => Fin.ext ?_)
    match a with
    | ⟨0, _⟩ =>
      show win0_1.index t (0 : Fin 2) * 512 + 1 * d.val = d.val
      omega
    | ⟨1, _⟩ =>
      show win0_1.index t (1 : Fin 2) * 28 + 1 * s.val = s.val
      omega
  · show V m c main_v0 (((cfg0.win 2).blk t).view.emb (ix2 (0 : Fin 1) s)) = V m c main_v0 (ix2 (0 : Fin 1) s)
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 28 + 1 * s.val = s.val
      omega

/-- An entry of the score vector is in point t's block iff it lies in the block's range. -/
theorem mem_blk (t : Fin cfg0.N) (i : S131072.Idx) :
    i ∈ ((cfg0.win 3).blk t).view.set
      ↔ ∀ a : Fin 1, win0_3.index t a * S4096.size a ≤ (i a).val ∧ (i a).val < win0_3.index t a * S4096.size a + S4096.size a := by
  show i ∈ ((View.whole main_v1).slice (win0_3.rect t)).set ↔ _
  rw [View.set_slice_whole, Rect.mem_set_unit]
  exact Iff.rfl

/-- Every entry is written back by some point: entry i by the point whose block index is i / 4096. -/
theorem cover (i : S131072.Idx) :
    ∃ t : Fin cfg0.N, (cfg0.win 3).flush t = true ∧ i ∈ ((cfg0.win 3).blk t).view.set := by
  have hi : (i 0).val < 131072 := (i 0).isLt
  obtain ⟨t, ht⟩ := idx_onto ⟨(i 0).val / 4096, by omega⟩
  have q0 : win0_3.index t (0 : Fin 1) = (i 0).val / 4096 := congrFun ht 0
  refine ⟨t, flush0_3 t, ?_⟩
  rw [mem_blk]
  intro a
  match a with
  | ⟨0, _⟩ =>
    show win0_3.index t (0 : Fin 1) * 4096 ≤ (i 0).val ∧ (i 0).val < win0_3.index t (0 : Fin 1) * 4096 + 4096
    omega

/-- After the run the output array is the vector of scores of the arrays as the region finds them. -/
theorem final (c : Dev nD) :
    (dats m 0 c).arrAt 3 cfg0.N = rowScores (V m c main_arg0) (V m c main_arg2) (V m c main_v0) :=
  (dats m 0 c).arrAt_eq_of_cover 3 _ (fun t _ => flushed_eq m c t) cover

end Cert.KernelIdeal.BlockScores

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«158071_j89395449299573_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.KernelScores.lean ====
/-
  The kernel program's two results as functions of its arguments.

  Before the region the host re-lays the column φ as a [1, 28] row, whose entry (0, s) is φ(s, 0); the region leaves the
  vector of scores of θ, W and that row; after the region the host re-lays the vector as a [131072, 1] column — the first
  result, scoreCol θ φ W — and multiplies the last row of θ, cut out as a [1, 512] matrix, by W — the second result,
  lastProj θ W.
-/
import proofs.«158071_j89395449299573_2_alg».proof.Proof.Gen.KernelIdeal.Frame
import proofs.«158071_j89395449299573_2_alg».proof.Proof.BlockScores
import proofs.«158071_j89395449299573_2_alg».proof.Proof.LibPlainDot
import proofs.«158071_j89395449299573_2_alg».proof.Proof.LibPayload
import Idealize.ShloMosaic.Lib.StableHlo.Run
import Idealize.ShloMosaic.Lib.ValueLayout
import Idealize.ShloMosaic.Lib.Pipeline.Value

set_option maxRecDepth 16384

noncomputable section

open scoped BigOperators

namespace Cert.KernelIdeal.KernelScores

open Idealize.ShloMosaic Idealize.ShloMosaic.TcCoe Idealize.ShloMosaic.ValueIdx Idealize.SL.Sem
open Cert.KernelIdeal Cert.KernelIdeal.Gen Cert.KernelIdeal.BlockScores Cert.Scores
open Idealize.ShloMosaic.Pipeline (Dat Cfg Window)

variable (m : (ℓ : Loc nD τ sig) → Buf (Elt Ideal) ℓ) (ρ : Dev nD → PrngReg)

/-- A [28, 1] column re-laid as a [1, 28] row reads, at (0, s), the column at (s, 0). -/
theorem col_to_row {α : Type} (x : (⟨2, ![28, 1]⟩ : Shape).Idx → α)
    (h : (⟨2, ![28, 1]⟩ : Shape).ShapeCasts ⟨2, ![1, 28]⟩) (s : Fin 28) :
    shapeCast ⟨2, ![1, 28]⟩ x h (ix2 (0 : Fin 1) s) = x (ix2 s (0 : Fin 1)) :=
  shapeCast_apply x h _ _ (by
    rw [Shape.rowMajor_val_two, Shape.rowMajor_val_two]
    show s.val * 1 + 0 = 0 * 28 + s.val
    omega)

/-- The row the region finds is the column φ re-laid. -/
theorem row_eq (c : Dev nD) :
    (V m c main_v0 : S1x28.Idx → EReal)
      = shapeCast S1x28 (m ((c : Thread nD τ).loc main_arg1)) shapeCasts_S28x1_S1x28 := by
  show StableHlo.after hostOps0 (fun b => m (c, b)) (Proc.devRef .tc main_v0) = _
  after_results
  rfl

/-- The vector of scores the region leaves is, entry by entry, the score of the arguments. -/
theorem rowScores_eq (c : Dev nD) :
    rowScores (V m c main_arg0) (V m c main_arg2) (V m c main_v0)
      = fun i => scoreAt (m ((c : Thread nD τ).loc main_arg0)) (m ((c : Thread nD τ).loc main_arg1))
          (m ((c : Thread nD τ).loc main_arg2)) (i 0) := by
  rw [V_main_arg0, V_main_arg2, row_eq]
  funext i
  unfold rowScores scoreAt
  exact Finset.sum_congr rfl fun s _ => congrArg (_ * ·) (col_to_row _ _ s)

/-- The first result: the vector of scores re-laid as a column. -/
theorem tail_scores (c : Dev nD) :
    Pipeline.afterTail₀ cfgs (dats m) 0 (V0 m) [hostOps1] c main_v2
      = scoreCol (m ((c : Thread nD τ).loc main_arg0)) (m ((c : Thread nD τ).loc main_arg1))
          (m ((c : Thread nD τ).loc main_arg2)) := by
  have hw := (Pipeline.withArrays_arr spec0 launch0.win.arr_inj c (V0 m c)
    (fun w => (dats m 0 c).arrAt w cfg0.N) 3).trans ((final m c).trans (rowScores_eq m c))
  unfold Pipeline.afterTail₀
  show StableHlo.after hostOps1 _ (Proc.devRef .tc main_v2) = _
  after_results
  funext i
  obtain ⟨p, u, rfl⟩ : ∃ (p : Fin 131072) (u : Fin 1), i = ix2 p u := ⟨i 0, i 1, eq_ix2 i⟩
  refine (Cert.KernelIdeal.Pay.shapeCast_a_a1_apply _ shapeCasts_S131072_S131072x1 p u).trans ?_
  exact congrFun hw (ix1 p)

/-- The second result: the last row of θ times W. -/
theorem tail_last (c : Dev nD) :
    Pipeline.afterTail₀ cfgs (dats m) 0 (V0 m) [hostOps1] c main_v4
      = lastProj (m ((c : Thread nD τ).loc main_arg0)) (m ((c : Thread nD τ).loc main_arg2)) := by
  have h0 := (Pipeline.withArrays_arr spec0 launch0.win.arr_inj c (V0 m c)
    (fun w => (dats m 0 c).arrAt w cfg0.N) 0).trans
      (((dats m 0 c).arrAt_in 0 rfl _).trans ((A_eq m c 0).trans (V_main_arg0 m c)))
  have h2 := (Pipeline.withArrays_arr spec0 launch0.win.arr_inj c (V0 m c)
    (fun w => (dats m 0 c).arrAt w cfg0.N) 1).trans
      (((dats m 0 c).arrAt_in 1 rfl _).trans ((A_eq m c 1).trans (V_main_arg2 m c)))
  unfold Pipeline.afterTail₀
  show StableHlo.after hostOps1 _ (Proc.devRef .tc main_v4) = _
  after_results
  funext j
  obtain ⟨u, s, rfl⟩ : ∃ (u : Fin 1) (s : Fin 28), j = ix2 u s := ⟨j 0, j 1, eq_ix2 j⟩
  refine (Cert.LibPlainDot.dot_plain_apply dot_S1x512_S512x28_S1x28_1_0_0_1_n_n rfl none _ _ u s).trans ?_
  show _ = proj (m ((c : Thread nD τ).loc main_arg0)) (m ((c : Thread nD τ).loc main_arg2)) (131071 : Fin 131072) s
  unfold proj
  refine Finset.sum_congr rfl fun d _ => congrArg₂ (· * ·) ?_ ?_
  · refine (slice2_axis0_apply 131071 _ slices_S131072x512_S1x512_131071_0 u d (131071 : Fin 131072) (by
      show 131071 = 131071 + u.val
      omega)).trans ?_
    exact congrFun h0 (ix2 (131071 : Fin 131072) d)
  · exact congrFun h2 (ix2 d s)

/-- The kernel program's run: every weakly fair execution terminates, the first result the column of scores, the
    second the last row's projection, the arguments unchanged. -/
theorem run : θ_run defs (onTc (τ := τ) (main (F := Ideal))) ⟨m, fun _ => 0, ρ⟩ fun r => ∀ c : Dev nD,
      r.2.mem ((c : Thread nD τ).loc main_v2)
        = scoreCol (m ((c : Thread nD τ).loc main_arg0)) (m ((c : Thread nD τ).loc main_arg1))
            (m ((c : Thread nD τ).loc main_arg2))
      ∧ r.2.mem ((c : Thread nD τ).loc main_v4)
        = lastProj (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_scores m c),
      ((h c).2 main_v4 (Pipeline.mem_restRefs_of main_v4 (by decide) (by decide))).trans (tail_last m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KernelScores

end
-- ==== Proof.lean ====
/-
  The kernel streams θ : [131072, 512] in 32 blocks of 4096 rows; for each block it multiplies by W : [512, 28] and
  contracts every row of the product with φ, laid out as a row, giving the scores; outside the region the scores are
  re-laid as a column and the last row of θ is multiplied by W. The reference multiplies θ by W once, multiplies the
  product by the column φ, and cuts the product's last row out.

  On the extended reals both programs compute, entry by entry, the same nested sums:
    scores(p, 0) = Σ_s (Σ_d θ(p, d) · W(d, s)) · φ(s, 0),      out(0, s) = Σ_d θ(131071, d) · W(d, s)
  — the changes of float format are the identity, a product accumulated into zero is the plain sum, and the kernel's
  row sum runs over the same 28 terms as the reference's second product. No law of the extended reals beyond reading
  the sums index by index is needed, so the finiteness of the inputs is not used.

  The three frames: the two kernel programs by their frame runs, the reference by its run with the results dropped.
  The idealization rewrote nothing, so the preservation claim is trivial.
-/
import proofs.«158071_j89395449299573_2_alg».proof.Defs
import proofs.«158071_j89395449299573_2_alg».proof.Proof.Gen.Kernel
import proofs.«158071_j89395449299573_2_alg».proof.Proof.Gen.Kernel.Skeleton
import proofs.«158071_j89395449299573_2_alg».proof.Proof.Gen.Kernel.Launch
import proofs.«158071_j89395449299573_2_alg».proof.Proof.Gen.Kernel.Points
import proofs.«158071_j89395449299573_2_alg».proof.Proof.Gen.Kernel.Frame
import proofs.«158071_j89395449299573_2_alg».proof.Proof.Gen.KernelIdeal
import proofs.«158071_j89395449299573_2_alg».proof.Proof.Gen.KernelIdeal.Skeleton
import proofs.«158071_j89395449299573_2_alg».proof.Proof.Gen.KernelIdeal.Launch
import proofs.«158071_j89395449299573_2_alg».proof.Proof.Gen.KernelIdeal.Points
import proofs.«158071_j89395449299573_2_alg».proof.Proof.Gen.KernelIdeal.Frame
import proofs.«158071_j89395449299573_2_alg».proof.Proof.Gen.ReferenceIdeal
import proofs.«158071_j89395449299573_2_alg».proof.Proof.Gen.ReferenceIdeal.Run
import proofs.«158071_j89395449299573_2_alg».proof.Proof.Gen.ReferenceIdeal.Read
import proofs.«158071_j89395449299573_2_alg».proof.Proof.Gen.Pre_finite_inputs
import proofs.«158071_j89395449299573_2_alg».proof.Proof.Scores
import proofs.«158071_j89395449299573_2_alg».proof.Proof.RefScores
import proofs.«158071_j89395449299573_2_alg».proof.Proof.KernelScores
import Idealize.ShloMosaic.Adequacy
import Idealize.ShloMosaic.Init

noncomputable section

namespace Cert.Proof

open Idealize.ShloMosaic Idealize.ShloMosaic.TcCoe Idealize.SL.Sem Cert.Scores

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2)
    (Cert.ReferenceIdeal.Value.run (F := Ideal) m ρ)

/-- Both programs end with the column of scores and the last row's projection of the same arguments. -/
theorem algebraic : Cert.algebraic_KernelIdeal_ReferenceIdeal := by
  intro m ρ m' ρ' _ hagree
  refine ⟨fun c => scoreCol (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => lastProj (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.KernelScores.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v1_eq, Cert.ReferenceIdeal.RefScores.scores_eq,
      (hagree c).1, (hagree c).2.1, (hagree c).2.2]
  · rw [(h c).2.1, Cert.ReferenceIdeal.Read.val_main_v2_eq, Cert.ReferenceIdeal.RefScores.last_eq,
      (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
